-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x64 .f32) (main_arg3 : FVec F S64 .f32) (main_arg4 : FVec F S64x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x512 : Shape := ⟨2, ![5000, 512]⟩
abbrev S5000x64 : Shape := ⟨2, ![5000, 64]⟩
abbrev S3300000x64 : Shape := ⟨2, ![3300000, 64]⟩
abbrev S1x64 : Shape := ⟨2, ![1, 64]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 123
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x64, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x40, .f32⟩
  | .hbm, ⟨98, _⟩ => ⟨S3300000x1, .f32⟩
  | .hbm, ⟨99, _⟩ => ⟨S3300000x40, .f32⟩
  | .hbm, ⟨100, _⟩ => ⟨S3300000x40, .f32⟩
  | .hbm, ⟨101, _⟩ => ⟨S_, .f32⟩
  | .hbm, ⟨102, _⟩ => ⟨S100000x40, .f32⟩
  | .hbm, ⟨103, _⟩ => ⟨S3300000x1, .i32⟩
  | .hbm, ⟨104, _⟩ => ⟨S100000x40, .f32⟩
  | .hbm, ⟨105, _⟩ => ⟨S1x40, .f32⟩
  | .hbm, ⟨106, _⟩ => ⟨S100000x40, .f32⟩
  | .hbm, ⟨107, _⟩ => ⟨S100000x40, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x40, .f32⟩
  | .hbm, ⟨115, _⟩ => ⟨S100000x40, .f32⟩
  | .hbm, ⟨116, _⟩ => ⟨S100000x40, .f32⟩
  | .hbm, ⟨117, _⟩ => ⟨S_, .f32⟩
  | .hbm, ⟨118, _⟩ => ⟨S100000, .f32⟩
  | .hbm, ⟨119, _⟩ => ⟨S100000x1, .f32⟩
  | .hbm, ⟨120, _⟩ => ⟨S100000x1, .f32⟩
  | .hbm, ⟨121, _⟩ => ⟨S100000x40, .f32⟩
  | .hbm, ⟨122, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x40, .f32⟩
  | .local _ .vmem, ⟨8, _⟩ => ⟨S5000x40, .f32⟩
  | .local _ .vmem, ⟨9, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call2_cst : Ref sig .tc := ⟨.hbm, 108, rfl⟩
abbrev main_call2_v0 : Ref sig .tc := ⟨.hbm, 109, rfl⟩
abbrev main_call2_cst_0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_cst_1 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_v80 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  dot_S5000x512_S512x64_S5000x64_1_0_0_1_n_n_wf : DotDims.WF S5000x512 S512x64 S5000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x40_S5000x40_1_0_0_1_n_n_wf : DotDims.WF S5000x64 S64x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x64 : Shape := ⟨2, ![512, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x64, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x64, .f32⟩
  | .hbm, ⟨56, _⟩ => ⟨S3300000x1, .f32⟩
  | .hbm, ⟨57, _⟩ => ⟨S3300000x64, .f32⟩
  | .hbm, ⟨58, _⟩ => ⟨S3300000x64, .f32⟩
  | .hbm, ⟨59, _⟩ => ⟨S_, .f32⟩
  | .hbm, ⟨60, _⟩ => ⟨S100000x64, .f32⟩
  | .hbm, ⟨61, _⟩ => ⟨S3300000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000, .f32⟩
  | .hbm, ⟨79, _⟩ => ⟨S_, .i32⟩
  | .hbm, ⟨80, _⟩ => ⟨S3300000, .i32⟩
  | .hbm, ⟨81, _⟩ => ⟨S3300000, .i1⟩
  | .hbm, ⟨82, _⟩ => ⟨S_, .i32⟩
  | .hbm, ⟨83, _⟩ => ⟨S3300000, .i32⟩
  | .hbm, ⟨84, _⟩ => ⟨S3300000, .i32⟩
  | .hbm, ⟨85, _⟩ => ⟨S3300000, .i32⟩
  | .hbm, ⟨86, _⟩ => ⟨S3300000x1, .i32⟩
  | .hbm, ⟨87, _⟩ => ⟨S3300000, .f32⟩
  | .hbm, ⟨88, _⟩ => ⟨S3300000, .f32⟩
  | .hbm, ⟨89, _⟩ => ⟨S_, .i32⟩
  | .hbm, ⟨90, _⟩ => ⟨S3300000, .i32⟩
  | .hbm, ⟨91, _⟩ => ⟨S3300000, .i1⟩
  | .hbm, ⟨92, _⟩ => ⟨S_, .i32⟩
  | .hbm, ⟨93, _⟩ => ⟨S3300000, .i32⟩
  | .hbm, ⟨94, _⟩ => ⟨S3300000, .i32⟩
  | .hbm, ⟨95, _⟩ => ⟨S3300000, .i32⟩
  | .hbm, ⟨96, _⟩ => ⟨S3300000x1, .i32⟩
  | .hbm, ⟨97, _⟩ => ⟨S3300000x40, .f32⟩
  | .hbm, ⟨98, _⟩ => ⟨S3300000x1, .f32⟩
  | .hbm, ⟨99, _⟩ => ⟨S3300000x40, .f32⟩
  | .hbm, ⟨100, _⟩ => ⟨S3300000x40, .f32⟩
  | .hbm, ⟨101, _⟩ => ⟨S_, .f32⟩
  | .hbm, ⟨102, _⟩ => ⟨S100000x40, .f32⟩
  | .hbm, ⟨103, _⟩ => ⟨S3300000x1, .i32⟩
  | .hbm, ⟨104, _⟩ => ⟨S100000x40, .f32⟩
  | .hbm, ⟨105, _⟩ => ⟨S1x40, .f32⟩
  | .hbm, ⟨106, _⟩ => ⟨S100000x40, .f32⟩
  | .hbm, ⟨107, _⟩ => ⟨S100000x40, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x40, .f32⟩
  | .hbm, ⟨115, _⟩ => ⟨S100000x40, .f32⟩
  | .hbm, ⟨116, _⟩ => ⟨S100000x40, .f32⟩
  | .hbm, ⟨117, _⟩ => ⟨S_, .f32⟩
  | .hbm, ⟨118, _⟩ => ⟨S100000, .f32⟩
  | .hbm, ⟨119, _⟩ => ⟨S100000x1, .f32⟩
  | .hbm, ⟨120, _⟩ => ⟨S100000x1, .f32⟩
  | .hbm, ⟨121, _⟩ => ⟨S100000x40, .f32⟩
  | .hbm, ⟨122, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call2_cst : Ref sig .tc := ⟨.hbm, 108, rfl⟩
abbrev main_call2_v0 : Ref sig .tc := ⟨.hbm, 109, rfl⟩
abbrev main_call2_cst_0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_cst_1 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_v80 : Ref sig .tc := ⟨.hbm, 122, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  dot_S100000x512_S512x64_S100000x64_1_0_0_1_n_n_wf : DotDims.WF S100000x512 S512x64 S100000x64 [1] [0] [0] [1] [] []
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x40_S100000x40_1_0_0_1_n_n_wf : DotDims.WF S100000x64 S64x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.ReferenceRun.lean ====
/-
  The reference's run, read at what the claims name: the two results at the fold of its line of operations, and the six
  argument arrays, which no operation of the line writes, as launched.
-/
import proofs.«159160_j68298569941027_1_alg».proof.Proof.ReferenceFold

noncomputable section

namespace Cert.ReferenceIdeal.Hand

open Cert.ReferenceIdeal Cert.ReferenceIdeal.Gen Cert.ReferenceIdeal.Fold
open Idealize.ShloMosaic Idealize.ShloMosaic.TcCoe Idealize.SL.Sem Idealize.ShloMosaic.StableHlo

variable {F : FTy → Type} [FloatOps F]

set_option maxRecDepth 8192 in
set_option maxHeartbeats 46800000 in
/-- Every weakly fair execution of the reference terminates with each result buffer at the fold of the 117 operations
    over the launch contents, read at that buffer, and with the argument arrays unchanged. -/
theorem run_results (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = after (ops (F := F)) (launchContents m c) (Proc.devRef .tc main_v80)
      ∧ r.2.mem ((c.tc : Thread nD τ).loc main_v79) = after (ops (F := F)) (launchContents m c) (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v80, h c main_v79,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_fold m ρ)

end Cert.ReferenceIdeal.Hand

end
-- ==== Proof.LibFoldRead.lean ====
/-
  Reading a fold of host operations at a buffer, with two-operand results kept as an application.

  `StableHlo.after ops V` is the buffer contents after a line of host operations from contents `V`. The library reads such
  a fold at a buffer by one simplifier pass over the operations' result lemmas; a two-operand operation's result is its
  function applied to the two operands' contents, and when that function is a literal `fun a b => …` whose body puts the
  operands inside a dependent pair (a concatenation's list of shaped pieces) the pass substitutes them there and can no
  longer rewrite them. Here the same result is stated through `held2 f x y := f x y`, which the simplifier does not open:
  the operands stay ordinary arguments, and `held2` unfolds by definition when two readings are compared.
  Also: the fold over a concatenation of two lines is the fold of the second over the fold of the first.
-/
import Idealize.ShloMosaic.Lib.StableHlo.Run

namespace Idealize.ShloMosaic.StableHlo

variable {τ : Topo} {sig : RefSig} {Val : EltTy → Type}

/-- A two-argument function applied, as a constant the simplifier leaves closed. -/
def held2 {α β γ : Type} (f : α → β → γ) (x : α) (y : β) : γ := f x y

theorem held2_def {α β γ : Type} (f : α → β → γ) (x : α) (y : β) : held2 f x y = f x y := rfl

/-- A two-operand operation's result at its own result buffer: its function, kept closed, of the operands' contents. -/
theorem binary_result_held {a b y : Ref sig .tc} (f : a.ty.Contents Val → b.ty.Contents Val → y.ty.Contents Val) (ha hb hy)
    (F : Valuation τ sig Val) :
    (binary (τ := τ) a b y f ha hb hy).result F (no_index (Proc.devRef .tc y))
      = held2 f (F (Proc.devRef .tc a)) (F (Proc.devRef .tc b)) :=
  binary_result a b y f ha hb hy F

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Reads `after ops V (Proc.devRef .tc r)` for a literal line `ops` in one simplifier pass, as the library's
    `after_results_simp` does, with every two-operand result kept as `held2 f _ _`. -/
macro "fold_results" : tactic =>
  `(tactic| (simp (disch := decide) only [after_cons, after_nil,
      nullary_result', unary_result', binary_result_held, ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.Stages.lean ====
/-
  The host operations the two programs share, stretch by stretch.

  Apart from the two matrix products, the kernel's program and the reference run the same host operations on equally
  named buffers: first the edge list with self loops and the normalising factor of each node (`main_v3`, `main_v6`,
  `main_v14`, from the edge index alone); between the products the first layer's gather, scaling, scatter-add, bias and
  rectifier (`main_v47` from `main_v15`); after the second product the second layer's aggregation and bias (`main_v79`)
  and the row-wise log-softmax (`main_v80`). So a stretch maps contents that agree on the buffers it reads to contents
  that agree on the buffers it writes, and leaves agreeing whatever it does not write. Each stretch is read at a buffer
  as one composed term on each side; the two terms differ only in which program's copy of a shape or a dimension record
  they name, and those copies are equal by definition. No operation is opened: what a gather or a reduction computes is
  never used, only that both sides apply the same one to equal operands.
-/
import proofs.«159160_j68298569941027_1_alg».proof.Proof.Gen.KernelIdeal.Launch
import proofs.«159160_j68298569941027_1_alg».proof.Proof.ReferenceFold
import proofs.«159160_j68298569941027_1_alg».proof.Proof.LibFoldRead

noncomputable section

open Idealize.ShloMosaic Idealize.ShloMosaic.StableHlo

namespace Cert.Stages

open Cert.KernelIdeal.Gen (hostOps0 hostOps0_1 hostOps1 hostOps1_1 hostOps2 hostOps2_1)

variable {F : FTy → Type} [FloatOps F]

/-- Buffer contents of the kernel's program and of the reference. -/
abbrev KVal (F : FTy → Type) := Valuation Cert.KernelIdeal.τ Cert.KernelIdeal.sig (Elt F)
abbrev RVal (F : FTy → Type) := Valuation Cert.ReferenceIdeal.τ Cert.ReferenceIdeal.sig (Elt F)

open Lean in
/-- `agree% WK WR b`: the two contents hold the same array at the buffer both programs call `b`. -/
local macro "agree% " WK:term:max WR:term:max b:ident : term =>
  `($WK (Proc.devRef .tc $(mkIdent (`Cert.KernelIdeal ++ b.getId))) = $WR (Proc.devRef .tc $(mkIdent (`Cert.ReferenceIdeal ++ b.getId))))

/-! ## Where the two contents agree, boundary by boundary -/

/-- At launch: the six arguments. -/
structure AtLaunch (WK : KVal F) (WR : RVal F) : Prop where
  arg0 : agree% WK WR main_arg0
  arg1 : agree% WK WR main_arg1
  arg2 : agree% WK WR main_arg2
  arg3 : agree% WK WR main_arg3
  arg4 : agree% WK WR main_arg4
  arg5 : agree% WK WR main_arg5

/-- After the index preamble: the arguments still needed, the two index lists and the normalising factors. -/
structure AfterIndex (WK : KVal F) (WR : RVal F) : Prop where
  arg0 : agree% WK WR main_arg0
  arg2 : agree% WK WR main_arg2
  arg3 : agree% WK WR main_arg3
  arg4 : agree% WK WR main_arg4
  arg5 : agree% WK WR main_arg5
  v3 : agree% WK WR main_v3
  v6 : agree% WK WR main_v6
  v14 : agree% WK WR main_v14

/-- After the first product: its result beside what the first layer's aggregation reads. -/
structure AfterFirst (WK : KVal F) (WR : RVal F) : Prop where
  arg3 : agree% WK WR main_arg3
  arg4 : agree% WK WR main_arg4
  arg5 : agree% WK WR main_arg5
  v3 : agree% WK WR main_v3
  v6 : agree% WK WR main_v6
  v14 : agree% WK WR main_v14
  v15 : agree% WK WR main_v15

/-- After the first layer: its rectified output beside what the second layer reads. -/
structure AfterLayer (WK : KVal F) (WR : RVal F) : Prop where
  arg4 : agree% WK WR main_arg4
  arg5 : agree% WK WR main_arg5
  v3 : agree% WK WR main_v3
  v6 : agree% WK WR main_v6
  v14 : agree% WK WR main_v14
  v47 : agree% WK WR main_v47

/-- After the second product: its result beside what the second layer's aggregation reads. -/
structure AfterSecond (WK : KVal F) (WR : RVal F) : Prop where
  arg5 : agree% WK WR main_arg5
  v3 : agree% WK WR main_v3
  v6 : agree% WK WR main_v6
  v14 : agree% WK WR main_v14
  v48 : agree% WK WR main_v48

/-- At the return: the two results. -/
structure AtReturn (WK : KVal F) (WR : RVal F) : Prop where
  v80 : agree% WK WR main_v80
  v79 : agree% WK WR main_v79

/-! ## The reference's line of operations, cut where the kernel's program is cut -/

/-- The index preamble (21 operations). -/
def refA : List (HloOp Cert.ReferenceIdeal.τ Cert.ReferenceIdeal.sig (Elt F)) := Cert.ReferenceIdeal.Fold.ops.take 21
/-- The first product. -/
def refP1 : List (HloOp Cert.ReferenceIdeal.τ Cert.ReferenceIdeal.sig (Elt F)) := (Cert.ReferenceIdeal.Fold.ops.drop 21).take 1
/-- The first layer's aggregation, bias and rectifier (41 operations). -/
def refB : List (HloOp Cert.ReferenceIdeal.τ Cert.ReferenceIdeal.sig (Elt F)) := (Cert.ReferenceIdeal.Fold.ops.drop 22).take 41
/-- The second product. -/
def refP2 : List (HloOp Cert.ReferenceIdeal.τ Cert.ReferenceIdeal.sig (Elt F)) := (Cert.ReferenceIdeal.Fold.ops.drop 63).take 1
/-- The second layer's aggregation and bias, and the log-softmax (53 operations). -/
def refC : List (HloOp Cert.ReferenceIdeal.τ Cert.ReferenceIdeal.sig (Elt F)) := Cert.ReferenceIdeal.Fold.ops.drop 64

/-- The five pieces in order are the whole line. -/
theorem ops_split : (Cert.ReferenceIdeal.Fold.ops : List (HloOp Cert.ReferenceIdeal.τ Cert.ReferenceIdeal.sig (Elt F)))
    = refA ++ (refP1 ++ (refB ++ (refP2 ++ refC))) := rfl

/-- Opens the stretches named in the goal, on both sides, to their literal lines of operations. -/
macro "stage_open" : tactic =>
  `(tactic| simp only [refA, refP1, refB, refP2, refC, Cert.ReferenceIdeal.Fold.ops, List.take_succ_cons, List.take_zero,
      List.drop_succ_cons, List.drop_zero, hostOps0, hostOps0_1, hostOps1, hostOps1_1, hostOps2, hostOps2_1])

/-! ## The three shared stretches -/

set_option maxHeartbeats 8000000 in
/-- The index preamble: the lists and the factors come from the edge index alone; the other arguments are not written. -/
theorem stageA (WK : KVal F) (WR : RVal F) (h : AtLaunch WK WR) :
    AfterIndex (after hostOps0_1 (after hostOps0 WK)) (after refA WR) := by
  stage_open
  exact
   { arg0 := by fold_results; exact h.arg0
     arg2 := by fold_results; exact h.arg2
     arg3 := by fold_results; exact h.arg3
     arg4 := by fold_results; exact h.arg4
     arg5 := by fold_results; exact h.arg5
     v3 := by fold_results; rw [h.arg1]; rfl
     v6 := by fold_results; rw [h.arg1]; rfl
     v14 := by fold_results; rw [h.arg1]; rfl }

set_option maxHeartbeats 8000000 in
/-- The first layer after its product: gather by source, scale, scatter-add by target, add the bias, rectify. -/
theorem stageB (WK : KVal F) (WR : RVal F) (h : AfterFirst WK WR) :
    AfterLayer (after hostOps1_1 (after hostOps1 WK)) (after refB WR) := by
  stage_open
  exact
   { arg4 := by fold_results; exact h.arg4
     arg5 := by fold_results; exact h.arg5
     v3 := by fold_results; exact h.v3
     v6 := by fold_results; exact h.v6
     v14 := by fold_results; exact h.v14
     v47 := by fold_results; rw [h.arg3, h.v3, h.v6, h.v14, h.v15]; rfl }

set_option maxHeartbeats 8000000 in
/-- The second layer after its product, and the row-wise log-softmax of its output. -/
theorem stageC (WK : KVal F) (WR : RVal F) (h : AfterSecond WK WR) :
    AtReturn (after hostOps2_1 (after hostOps2 WK)) (after refC WR) := by
  stage_open
  exact
   { v80 := by fold_results; rw [h.arg5, h.v3, h.v6, h.v14, h.v48]; rfl
     v79 := by fold_results; rw [h.arg5, h.v3, h.v6, h.v14, h.v48]; rfl }

end Cert.Stages

end
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.RegionProduct.lean ====
/-
  What each of the two tiled matrix-product regions leaves in its output array, at the extended reals.

  A region walks twenty row tiles of 5000 rows. At a tile the body multiplies the tile of the left matrix by the
  whole right matrix into a zero accumulator (the narrowing of both operands to a shorter float format is the
  identity on extended reals) and stores the product as the tile of the output. Row `5000·t + p` of the left matrix
  is row `p` of tile `t`, so the tile written at `t` is the tile at `t` of the full product
  `(a, b) ↦ ∑ c, A (a, c) · B (c, b)`; the twenty tiles cover the output, which therefore ends at the full product
  of the two arrays the region found on entry.
-/
import proofs.«159160_j68298569941027_1_alg».proof.Proof.Gen.KernelIdeal.Frame
import proofs.«159160_j68298569941027_1_alg».proof.Proof.LibPlainProduct
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Product

open Cert.KernelIdeal Cert.KernelIdeal.Gen Cert.PlainProduct

variable (V : (c : Dev nD) → (b : Ref sig .tc) → Buf (Elt Ideal) ((c : Thread nD τ).loc b))

theorem zero_offsets : (![0, 0] : Fin 2 → Nat) = fun _ => 0 := funext fun a => by fin_cases a <;> rfl

/-! ## The first region: [100000, 512] × [512, 64] -/

/-- The full product of the first region's two input arrays. -/
abbrev full0 (c : Dev nD) : FVec Ideal S100000x64 .f32 :=
  Host.dotGeneral (F := Ideal) (φ₁ := .f32) (φ₂ := .f32) (DotDims.plain 100000 512 64) none (V c main_arg0) (V c main_arg2)

/-- The body's stored value at `(p, q)`: row `p` of the left tile against column `q` of the right matrix. -/
theorem tile0_apply (x0 : Vec Ideal S5000x512 .f32) (x1 : Vec Ideal S512x64 .f32) (p : Fin 5000) (q : Fin 64) :
    k0_pay1 x0 x1 (ix2 p q) = ∑ k : Fin 512, x0 (ix2 p k) * x1 (ix2 k q) := by
  unfold k0_pay1
  exact matmul_plain_apply dot_S5000x512_S512x64_S5000x64_1_0_0_1_n_n rfl none
    (truncf .bf16 x0 bitsLt_bf16_f32) (truncf .bf16 x1 bitsLt_bf16_f32) p q

/-- The printed index maps over the grid: the left and the output windows move one tile of rows per point, the right
    window stays on its one block. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the left tile at point `t` is row `5000·t + p` of the left array. -/
theorem left0_apply (c : Dev nD) (t : Fin cfg0.N) (p : Fin 5000) (k : Fin 512) (a : Fin 100000)
    (ha : a.val = 5000 * t.val + p.val) :
    (iblk0 V c 0 t : Vec Ideal S5000x512 .f32) (ix2 p k) = (V c main_arg0 : S100000x512.Idx → EReal) (ix2 a k) := by
  obtain ⟨e0, e1, -⟩ := index0 t
  unfold iblk0
  rw [View.read_apply]
  show V c main_arg0 _ = V c main_arg0 _
  refine congrArg _ ?_
  funext ax
  apply Fin.ext
  match ax with
  | ⟨0, _⟩ => show win0_0.index t (0 : Fin 2) * 5000 + 1 * p.val = a.val; rw [e0, ha]; omega
  | ⟨1, _⟩ => show win0_0.index t (1 : Fin 2) * 512 + 1 * k.val = k.val; rw [e1]; omega

/-- The right window's block at any point is the whole right array. -/
theorem right0_apply (c : Dev nD) (t : Fin cfg0.N) (k : Fin 512) (q : Fin 64) :
    (iblk0 V c 1 t : Vec Ideal S512x64 .f32) (ix2 k q) = (V c main_arg2 : S512x64.Idx → EReal) (ix2 k q) := by
  obtain ⟨-, -, e2, e3, -⟩ := index0 t
  unfold iblk0
  rw [View.read_apply]
  show V c main_arg2 _ = V c main_arg2 _
  refine congrArg _ ?_
  funext ax
  apply Fin.ext
  match ax with
  | ⟨0, _⟩ => show win0_1.index t (0 : Fin 2) * 512 + 1 * k.val = k.val; rw [e2]; omega
  | ⟨1, _⟩ => show win0_1.index t (1 : Fin 2) * 64 + 1 * q.val = q.val; rw [e3]; omega

/-- What point `t` writes back is tile `t` of the full product. -/
theorem flushed0 (c : Dev nD) (t : Fin cfg0.N) :
    (dat0 V c).flushed 2 t = ((cfg0.win 2).blk t).view.read (Elt Ideal) (full0 V c) := by
  have hN : cfg0.N = 20 := N_0
  obtain ⟨-, -, -, -, e4, e5⟩ := index0 t
  show (cfg0.win 2).cut (grid0.coords t) ((dat0 V c).after 2 t) = _
  rw [after0_2]
  unfold out0_2
  rw [View.canon_unit_zero zero_offsets]
  simp only [View.ld_unit_zero (S := S5000x512) zero_offsets, View.ld_unit_zero (S := S512x64) zero_offsets]
  funext y
  obtain ⟨p, q, rfl⟩ : ∃ (p : Fin 5000) (q : Fin 64), y = ix2 p q := ⟨y 0, y 1, eq_ix2 y⟩
  rw [View.read_apply]
  have hp : 5000 * t.val + p.val < 100000 := by have := t.isLt; have := p.isLt; omega
  have hemb : ((cfg0.win 2).blk t).view.emb (ix2 p q) = (ix2 (⟨5000 * t.val + p.val, hp⟩ : Fin 100000) q : S100000x64.Idx) := by
    funext ax
    apply Fin.ext
    match ax with
    | ⟨0, _⟩ => show win0_2.index t (0 : Fin 2) * 5000 + 1 * p.val = 5000 * t.val + p.val; rw [e4]; omega
    | ⟨1, _⟩ => show win0_2.index t (1 : Fin 2) * 64 + 1 * q.val = q.val; rw [e5]; omega
  rw [hemb]
  refine (tile0_apply _ _ p q).trans ?_
  refine Eq.trans ?_ (dotGeneral_plain_apply' (DotDims.plain 100000 512 64) rfl none _ _ _ q).symm
  refine Finset.sum_congr rfl fun k _ => ?_
  rw [left0_apply V c t p k ⟨5000 * t.val + p.val, hp⟩ rfl, right0_apply V c t k q]

/-- Row `a` of the output lies in the tile of point `a / 5000`: the twenty tiles cover the array. -/
theorem cover0 (i : S100000x64.Idx) :
    ∃ t : Fin cfg0.N, (cfg0.win 2).flush t = true ∧ i ∈ ((cfg0.win 2).blk t).view.set := by
  have hN : cfg0.N = 20 := N_0
  have h0 : (i 0).val < 100000 := (i 0).isLt
  have h1 : (i 1).val < 64 := (i 1).isLt
  have ht : (i 0).val / 5000 < cfg0.N := by rw [hN]; omega
  obtain ⟨t, htv⟩ : ∃ t : Fin cfg0.N, t.val = (i 0).val / 5000 := ⟨⟨_, ht⟩, rfl⟩
  refine ⟨t, flush0_2 t, ?_⟩
  obtain ⟨-, -, -, -, e4, e5⟩ := index0 t
  show i ∈ ((View.whole main_v15).slice (win0_2.rect t)).set
  rw [View.set_slice_whole, Rect.mem_set_unit]
  intro ax
  match ax with
  | ⟨0, _⟩ =>
    show win0_2.index t (0 : Fin 2) * 5000 ≤ (i 0).val ∧ (i 0).val < win0_2.index t (0 : Fin 2) * 5000 + 5000
    rw [e4, htv]; omega
  | ⟨1, _⟩ =>
    show win0_2.index t (1 : Fin 2) * 64 ≤ (i 1).val ∧ (i 1).val < win0_2.index t (1 : Fin 2) * 64 + 64
    rw [e5]; omega

/-- The first region's output array after the region: the full product of the arrays it found. -/
theorem final0 (c : Dev nD) : (dat0 V c).arrAt 2 cfg0.N = full0 V c :=
  (dat0 V c).arrAt_eq_of_cover 2 (full0 V c) (fun t _ => flushed0 V c t) cover0

/-! ## The second region: [100000, 64] × [64, 40] -/

/-- The full product of the second region's two input arrays. -/
abbrev full1 (c : Dev nD) : FVec Ideal S100000x40 .f32 :=
  Host.dotGeneral (F := Ideal) (φ₁ := .f32) (φ₂ := .f32) (DotDims.plain 100000 64 40) none (V c main_v47) (V c main_arg4)

/-- The body's stored value at `(p, q)`: row `p` of the left tile against column `q` of the right matrix. -/
theorem tile1_apply (x0 : Vec Ideal S5000x64 .f32) (x1 : Vec Ideal S64x40 .f32) (p : Fin 5000) (q : Fin 40) :
    k1_pay1 x0 x1 (ix2 p q) = ∑ k : Fin 64, x0 (ix2 p k) * x1 (ix2 k q) := by
  unfold k1_pay1
  refine (matmul_plain_apply dot_S5000x64_S64x40_S5000x40_1_0_0_1_n_n rfl none
    (truncf .bf16 (shapeCast S5000x64 x0 shapeCasts_S5000x64_S5000x64) bitsLt_bf16_f32) (truncf .bf16 x1 bitsLt_bf16_f32) p q).trans ?_
  refine Finset.sum_congr rfl fun k _ => ?_
  exact congrArg (· * x1 (ix2 k q)) (congrFun (shapeCast_self x0 shapeCasts_S5000x64_S5000x64) (ix2 p k))

/-- The printed index maps over the grid: the left and the output windows move one tile of rows per point, the right
    window stays on its one block. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the left tile at point `t` is row `5000·t + p` of the left array. -/
theorem left1_apply (c : Dev nD) (t : Fin cfg1.N) (p : Fin 5000) (k : Fin 64) (a : Fin 100000)
    (ha : a.val = 5000 * t.val + p.val) :
    (iblk1 V c 0 t : Vec Ideal S5000x64 .f32) (ix2 p k) = (V c main_v47 : S100000x64.Idx → EReal) (ix2 a k) := by
  obtain ⟨e0, e1, -⟩ := index1 t
  unfold iblk1
  rw [View.read_apply]
  show V c main_v47 _ = V c main_v47 _
  refine congrArg _ ?_
  funext ax
  apply Fin.ext
  match ax with
  | ⟨0, _⟩ => show win1_0.index t (0 : Fin 2) * 5000 + 1 * p.val = a.val; rw [e0, ha]; omega
  | ⟨1, _⟩ => show win1_0.index t (1 : Fin 2) * 64 + 1 * k.val = k.val; rw [e1]; omega

/-- The right window's block at any point is the whole right array. -/
theorem right1_apply (c : Dev nD) (t : Fin cfg1.N) (k : Fin 64) (q : Fin 40) :
    (iblk1 V c 1 t : Vec Ideal S64x40 .f32) (ix2 k q) = (V c main_arg4 : S64x40.Idx → EReal) (ix2 k q) := by
  obtain ⟨-, -, e2, e3, -⟩ := index1 t
  unfold iblk1
  rw [View.read_apply]
  show V c main_arg4 _ = V c main_arg4 _
  refine congrArg _ ?_
  funext ax
  apply Fin.ext
  match ax with
  | ⟨0, _⟩ => show win1_1.index t (0 : Fin 2) * 64 + 1 * k.val = k.val; rw [e2]; omega
  | ⟨1, _⟩ => show win1_1.index t (1 : Fin 2) * 40 + 1 * q.val = q.val; rw [e3]; omega

/-- What point `t` writes back is tile `t` of the full product. -/
theorem flushed1 (c : Dev nD) (t : Fin cfg1.N) :
    (dat1 V c).flushed 2 t = ((cfg1.win 2).blk t).view.read (Elt Ideal) (full1 V c) := by
  have hN : cfg1.N = 20 := N_1
  obtain ⟨-, -, -, -, e4, e5⟩ := index1 t
  show (cfg1.win 2).cut (grid1.coords t) ((dat1 V c).after 2 t) = _
  rw [after1_2]
  unfold out1_2
  rw [View.canon_unit_zero zero_offsets]
  simp only [View.ld_unit_zero (S := S5000x64) zero_offsets, View.ld_unit_zero (S := S64x40) zero_offsets]
  funext y
  obtain ⟨p, q, rfl⟩ : ∃ (p : Fin 5000) (q : Fin 40), y = ix2 p q := ⟨y 0, y 1, eq_ix2 y⟩
  rw [View.read_apply]
  have hp : 5000 * t.val + p.val < 100000 := by have := t.isLt; have := p.isLt; omega
  have hemb : ((cfg1.win 2).blk t).view.emb (ix2 p q) = (ix2 (⟨5000 * t.val + p.val, hp⟩ : Fin 100000) q : S100000x40.Idx) := by
    funext ax
    apply Fin.ext
    match ax with
    | ⟨0, _⟩ => show win1_2.index t (0 : Fin 2) * 5000 + 1 * p.val = 5000 * t.val + p.val; rw [e4]; omega
    | ⟨1, _⟩ => show win1_2.index t (1 : Fin 2) * 40 + 1 * q.val = q.val; rw [e5]; omega
  rw [hemb]
  refine (tile1_apply _ _ p q).trans ?_
  refine Eq.trans ?_ (dotGeneral_plain_apply' (DotDims.plain 100000 64 40) rfl none _ _ _ q).symm
  refine Finset.sum_congr rfl fun k _ => ?_
  rw [left1_apply V c t p k ⟨5000 * t.val + p.val, hp⟩ rfl, right1_apply V c t k q]

/-- Row `a` of the output lies in the tile of point `a / 5000`: the twenty tiles cover the array. -/
theorem cover1 (i : S100000x40.Idx) :
    ∃ t : Fin cfg1.N, (cfg1.win 2).flush t = true ∧ i ∈ ((cfg1.win 2).blk t).view.set := by
  have hN : cfg1.N = 20 := N_1
  have h0 : (i 0).val < 100000 := (i 0).isLt
  have h1 : (i 1).val < 40 := (i 1).isLt
  have ht : (i 0).val / 5000 < cfg1.N := by rw [hN]; omega
  obtain ⟨t, htv⟩ : ∃ t : Fin cfg1.N, t.val = (i 0).val / 5000 := ⟨⟨_, ht⟩, rfl⟩
  refine ⟨t, flush1_2 t, ?_⟩
  obtain ⟨-, -, -, -, e4, e5⟩ := index1 t
  show i ∈ ((View.whole main_v48).slice (win1_2.rect t)).set
  rw [View.set_slice_whole, Rect.mem_set_unit]
  intro ax
  match ax with
  | ⟨0, _⟩ =>
    show win1_2.index t (0 : Fin 2) * 5000 ≤ (i 0).val ∧ (i 0).val < win1_2.index t (0 : Fin 2) * 5000 + 5000
    rw [e4, htv]; omega
  | ⟨1, _⟩ =>
    show win1_2.index t (1 : Fin 2) * 40 ≤ (i 1).val ∧ (i 1).val < win1_2.index t (1 : Fin 2) * 40 + 40
    rw [e5]; omega

/-- The second region's output array after the region: the full product of the arrays it found. -/
theorem final1 (c : Dev nD) : (dat1 V c).arrAt 2 cfg1.N = full1 V c :=
  (dat1 V c).arrAt_eq_of_cover 2 (full1 V c) (fun t _ => flushed1 V c t) cover1

end Cert.KernelIdeal.Product

end
-- ==== Proof.Bridge.lean ====
/-
  From the launch to the return, the two programs side by side.

  The kernel's program is three shared stretches of host operations with a tiled matrix-product region after the first and
  after the second; the reference is the same three stretches with one matrix product of whole arrays in each of those two
  places. A region leaves its output array at the full product of the two arrays it found on entry and touches no other
  buffer that is read later; the reference's product writes the same product of the same two arrays, as the dimension
  record it names is the plain `[m, k] × [k, n]` contraction. So agreement on the live buffers is carried from boundary to
  boundary, and at the return both results agree.
-/
import proofs.«159160_j68298569941027_1_alg».proof.Proof.Stages
import proofs.«159160_j68298569941027_1_alg».proof.Proof.RegionProduct

noncomputable section

open Idealize.ShloMosaic Idealize.ShloMosaic.TcCoe Idealize.ShloMosaic.StableHlo Idealize.SL.Sem

namespace Cert.Bridge

open Cert.Stages Cert.KernelIdeal Cert.KernelIdeal.Gen

/-! ## The two regions against the reference's two products, from any entry contents -/

section Regions

variable (W : Dev nD → KVal Ideal)

/-- Entry contents read at the TensorCore's references, as a region's proof data take them. -/
abbrev entry : (c : Dev nD) → (b : Ref sig .tc) → Buf (Elt Ideal) ((c : Thread nD τ).loc b) := fun c b => W c b

set_option maxHeartbeats 4000000 in
/-- The first region against the reference's first product. -/
theorem region0 (c : Dev nD) (WR : RVal Ideal) (h : AfterIndex (W c) WR) :
    AfterFirst (Pipeline.withArrays spec0 c (W c) fun w => (dat0 (entry W) c).arrAt w cfg0.N) (after refP1 WR) := by
  stage_open
  exact
   { arg3 := (Pipeline.withArrays_of_ne spec0 c _ _ main_arg3 (by decide)).trans (h.arg3.trans (by fold_results))
     arg4 := (Pipeline.withArrays_of_ne spec0 c _ _ main_arg4 (by decide)).trans (h.arg4.trans (by fold_results))
     arg5 := (Pipeline.withArrays_of_ne spec0 c _ _ main_arg5 (by decide)).trans (h.arg5.trans (by fold_results))
     v3 := (Pipeline.withArrays_of_ne spec0 c _ _ main_v3 (by decide)).trans (h.v3.trans (by fold_results))
     v6 := (Pipeline.withArrays_of_ne spec0 c _ _ main_v6 (by decide)).trans (h.v6.trans (by fold_results))
     v14 := (Pipeline.withArrays_of_ne spec0 c _ _ main_v14 (by decide)).trans (h.v14.trans (by fold_results))
     v15 := by
       refine (Pipeline.withArrays_arr spec0 launch0.win.arr_inj c _ _ 2).trans ((Product.final0 (entry W) c).trans ?_)
       fold_results
       rw [← h.arg0, ← h.arg2]
       rfl }

set_option maxHeartbeats 4000000 in
/-- The second region against the reference's second product. -/
theorem region1 (c : Dev nD) (WR : RVal Ideal) (h : AfterLayer (W c) WR) :
    AfterSecond (Pipeline.withArrays spec1 c (W c) fun w => (dat1 (entry W) c).arrAt w cfg1.N) (after refP2 WR) := by
  stage_open
  exact
   { arg5 := (Pipeline.withArrays_of_ne spec1 c _ _ main_arg5 (by decide)).trans (h.arg5.trans (by fold_results))
     v3 := (Pipeline.withArrays_of_ne spec1 c _ _ main_v3 (by decide)).trans (h.v3.trans (by fold_results))
     v6 := (Pipeline.withArrays_of_ne spec1 c _ _ main_v6 (by decide)).trans (h.v6.trans (by fold_results))
     v14 := (Pipeline.withArrays_of_ne spec1 c _ _ main_v14 (by decide)).trans (h.v14.trans (by fold_results))
     v48 := by
       refine (Pipeline.withArrays_arr spec1 launch1.win.arr_inj c _ _ 2).trans ((Product.final1 (entry W) c).trans ?_)
       fold_results
       rw [← h.v47, ← h.arg4]
       rfl }

end Regions

/-! ## The whole run -/

/-- From launch memories that agree on the six arguments, the kernel's program's last boundary contents and the
    reference's fold of its whole line agree at both results. -/
theorem results_agree (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (h0 : AtLaunch (W0 m ρ c) (launchContents m' c)) :
    AtReturn (W8 m ρ c) (after (Cert.ReferenceIdeal.Fold.ops (F := Ideal)) (launchContents m' c)) := by
  have h2 : AfterIndex (W2 m ρ c) _ := stageA _ _ h0
  have h3 : AfterFirst (W3 m ρ c) _ := region0 (W2 m ρ) c _ h2
  have h5 : AfterLayer (W5 m ρ c) _ := stageB _ _ h3
  have h6 : AfterSecond (W6 m ρ c) _ := region1 (W5 m ρ) c _ h5
  have h8 : AtReturn (W8 m ρ c) _ := stageC _ _ h6
  rw [ops_split, after_append, after_append, after_append, after_append]
  exact h8

end Cert.Bridge

end
-- ==== Proof.lean ====
/-
  The five claims about a two-layer graph convolution with a row-wise log-softmax.

  Both programs build the edge list with self loops, count each node's incoming edges, and scale every message by the
  inverse square roots of the degrees at its two ends; a layer multiplies the node features by a weight matrix, gathers
  the products by source node, scales them, adds them up by target node and adds a bias; the first layer is rectified
  and the second is returned beside its row-wise log-softmax. The kernel's program computes each layer's matrix product
  in a region that walks twenty row tiles, the reference with one product of whole arrays; everything else is the same
  line of host operations.

  At the extended reals a tile's product into a zero accumulator is the tile of the full product, entry by entry the sum
  over the contracted coordinate, and the tiles cover the output: each region leaves what the reference's product
  leaves (module RegionProduct). The shared host operations are carried as they are, read on both sides from contents
  that agree on what they read (modules Stages and Bridge), so nothing about gathers, scatter-adds or the softmax is
  needed beyond their being the same operations: the equality of results holds for all inputs, and the precondition is
  not used. The frames are the generated ones for the kernel's two printings and the reference's run with the results
  dropped; the idealization rewrote nothing, so `preserves` is `True`.
-/
import proofs.«159160_j68298569941027_1_alg».proof.Defs
import proofs.«159160_j68298569941027_1_alg».proof.Proof.Gen.Kernel
import proofs.«159160_j68298569941027_1_alg».proof.Proof.Gen.Kernel.Skeleton
import proofs.«159160_j68298569941027_1_alg».proof.Proof.Gen.Kernel.Launch
import proofs.«159160_j68298569941027_1_alg».proof.Proof.Gen.Kernel.Points
import proofs.«159160_j68298569941027_1_alg».proof.Proof.Gen.Kernel.Frame
import proofs.«159160_j68298569941027_1_alg».proof.Proof.Gen.KernelIdeal
import proofs.«159160_j68298569941027_1_alg».proof.Proof.Gen.KernelIdeal.Skeleton
import proofs.«159160_j68298569941027_1_alg».proof.Proof.Gen.KernelIdeal.Launch
import proofs.«159160_j68298569941027_1_alg».proof.Proof.Gen.KernelIdeal.Points
import proofs.«159160_j68298569941027_1_alg».proof.Proof.Gen.KernelIdeal.Frame
import proofs.«159160_j68298569941027_1_alg».proof.Proof.Gen.ReferenceIdeal
import proofs.«159160_j68298569941027_1_alg».proof.Proof.Gen.Pre_finite_inputs
import proofs.«159160_j68298569941027_1_alg».proof.Proof.KernelFold
import proofs.«159160_j68298569941027_1_alg».proof.Proof.ReferenceRun
import proofs.«159160_j68298569941027_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the results dropped. -/
theorem frame_referenceIdeal : Cert.frame_ReferenceIdeal := fun m ρ _ =>
  (θ_run Cert.ReferenceIdeal.defs _ _).mono (fun _ h c => (h c).2.2) (Cert.ReferenceIdeal.Hand.run_results (F := Ideal) m ρ)

/-- The ideal pass rewrote no operation. -/
theorem preserves : Cert.preserves_Kernel_KernelIdeal := trivial

/-- Both programs run, and from memories that agree on the arguments they end with equal results: the kernel's
    program's are what its last boundary holds, and the reference's fold of its whole line agrees with them there. -/
theorem algebraic : Cert.algebraic_KernelIdeal_ReferenceIdeal := by
  intro m ρ m' ρ' _ hagree
  refine ⟨fun c => Cert.KernelIdeal.Gen.W8 m ρ c (Proc.devRef .tc Cert.KernelIdeal.main_v80),
    fun c => Cert.KernelIdeal.Gen.W8 m ρ c (Proc.devRef .tc Cert.KernelIdeal.main_v79),
    Cert.KernelIdeal.GenP.frame_results m ρ, ?_⟩
  refine (θ_run Cert.ReferenceIdeal.defs _ _).mono (fun _ h c => ?_) (Cert.ReferenceIdeal.Hand.run_results (F := Ideal) m' ρ')
  obtain ⟨a0, a1, a2, a3, a4, a5⟩ := hagree c
  have hret := Cert.Bridge.results_agree m ρ m' c ⟨a0.symm, a1.symm, a2.symm, a3.symm, a4.symm, a5.symm⟩
  exact ⟨(h c).1.trans hret.v80.symm, (h c).2.1.trans hret.v79.symm, (h c).2.2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
